-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024x3 : Shape := ⟨4, ![16, 1024, 1024, 3]⟩
abbrev S_ : Shape := ⟨0, ![]⟩

class Facts : Prop where
  bcast_S_S16x1024x1024x3 : S_.BroadcastsInDim S16x1024x1024x3 (![] : Fin 0 → Fin S16x1024x1024x3.rank)
  reducesTo_S16x1024x1024x3_S_d0_1_2_3 : S16x1024x1024x3.ReducesTo [0, 1, 2, 3] S_
  h_S_ : 0 < S_.numel

variable [Facts]

def fn {F : FTy → Type} [FloatOps F] (main_arg0 : FVec F S16x1024x1024x3 .f32) : IVec S_ 1 :=
  let main_v0 : FVec F S16x1024x1024x3 .f32 := Host.absf main_arg0
  let main_cst : FVec F S_ .f32 := constant S_ .f32 0x7F800000#32
  let main_v1 : FVec F S16x1024x1024x3 .f32 := broadcastInDim S16x1024x1024x3 ![] bcast_S_S16x1024x1024x3 main_cst
  let main_v2 : IVec S16x1024x1024x3 1 := cmpf .olt main_v0 main_v1
  let main_c : IVec S_ 1 := constantI S_ 1 1#1
  let main_v3 : IVec S_ 1 := (fun x v => Host.reduce IntOp.andi x v reducesTo_S16x1024x1024x3_S_d0_1_2_3 h_S_) main_v2 main_c
  main_v3
-- ==== Kernel.lean ====
abbrev S16x1024x1024x3 : Shape := ⟨4, ![16, 1024, 1024, 3]⟩
abbrev S16x128x128x3 : Shape := ⟨4, ![16, 128, 128, 3]⟩
abbrev S1x256x1024x3 : Shape := ⟨4, ![1, 256, 1024, 3]⟩
abbrev S1x32x128x3 : Shape := ⟨4, ![1, 32, 128, 3]⟩
abbrev S256x1024x3 : Shape := ⟨3, ![256, 1024, 3]⟩
abbrev S256x128x8x3 : Shape := ⟨4, ![256, 128, 8, 3]⟩
abbrev S256x128x3 : Shape := ⟨3, ![256, 128, 3]⟩
abbrev S32x8x128x3 : Shape := ⟨4, ![32, 8, 128, 3]⟩
abbrev S32x128x3 : Shape := ⟨3, ![32, 128, 3]⟩

abbrev nBuf : Space → Nat
  | .hbm => 2
  | .vmem => 4
  | .smem => 0
  | _ => 0

abbrev bufTy : (tb : Table) → Fin (tcTables nBuf tb) → BufTy
  | .hbm, ⟨0, _⟩ => ⟨S16x1024x1024x3, .f32⟩
  | .hbm, ⟨1, _⟩ => ⟨S16x128x128x3, .f32⟩
  | .local _ .vmem, ⟨0, _⟩ => ⟨S1x256x1024x3, .f32⟩
  | .local _ .vmem, ⟨1, _⟩ => ⟨S1x256x1024x3, .f32⟩
  | .local _ .vmem, ⟨2, _⟩ => ⟨S1x32x128x3, .f32⟩
  | .local _ .vmem, ⟨3, _⟩ => ⟨S1x32x128x3, .f32⟩
  | _, _ => ⟨S16x1024x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x256x1024x3_S1x256x1024x3_0_0_0_0 : ∀ a, (![0, 0, 0, 0] : Fin 4 → Nat) a + S1x256x1024x3.size a ≤ S1x256x1024x3.size a
  h_S1x256x1024x3 : 0 < S1x256x1024x3.numel
  shapeCasts_S1x256x1024x3_S256x1024x3 : S1x256x1024x3.ShapeCasts S256x1024x3
  shapeCasts_S256x1024x3_S256x128x8x3 : S256x1024x3.ShapeCasts S256x128x8x3
  reduces_S256x128x8x3_S256x128x3 : S256x128x8x3.Reduces [2] S256x128x3
  shapeCasts_S256x128x3_S32x8x128x3 : S256x128x3.ShapeCasts S32x8x128x3
  reduces_S32x8x128x3_S32x128x3 : S32x8x128x3.Reduces [1] S32x128x3
  inb_S1x32x128x3_S1x32x128x3_0_0_0_0 : ∀ a, (![0, 0, 0, 0] : Fin 4 → Nat) a + S1x32x128x3.size a ≤ S1x32x128x3.size a
  h_S1x32x128x3 : 0 < S1x32x128x3.numel
  shapeCasts_S1x32x128x3_S32x128x3 : S1x32x128x3.ShapeCasts S32x128x3
  shapeCasts_S32x128x3_S1x32x128x3 : S32x128x3.ShapeCasts S1x32x128x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024x3.size a ≤ S16x1024x1024x3.size a
  hwx0_0 : ∀ i : grid0.Coords, EltTy.bits .f32 = 32 ∨ (Rect.block (s := S16x1024x1024x3) S1x256x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x3.size a ≤ S16x128x128x3.size a
  hwx0_1 : ∀ i : grid0.Coords, EltTy.bits .f32 = 32 ∨ (Rect.block (s := S16x128x128x3) S1x32x128x3.size (cc0_transform_1 i) (hinb0_1 i)).WholeWords (EltTy.packing .f32)

variable [Facts₀]

abbrev win0_0 : Pipeline.Window sig grid0 :=
  Pipeline.Window.ofSpec (Memref.whole main_arg0) S1x256x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x128x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1024x1024x3 : Shape := ⟨4, ![16, 1024, 1024, 3]⟩
abbrev S16x128x8x128x8x3 : Shape := ⟨6, ![16, 128, 8, 128, 8, 3]⟩
abbrev S_ : Shape := ⟨0, ![]⟩
abbrev S16x128x128x3 : Shape := ⟨4, ![16, 128, 128, 3]⟩
abbrev S16x128x8x128x3 : Shape := ⟨5, ![16, 128, 8, 128, 3]⟩
abbrev S16x1024x128x3 : Shape := ⟨4, ![16, 1024, 128, 3]⟩
abbrev S16x1024x128x8x3 : Shape := ⟨5, ![16, 1024, 128, 8, 3]⟩

abbrev nBuf : Space → Nat
  | .hbm => 19
  | .vmem => 0
  | .smem => 0
  | _ => 0

abbrev bufTy : (tb : Table) → Fin (tcTables nBuf tb) → BufTy
  | .hbm, ⟨0, _⟩ => ⟨S16x1024x1024x3, .f32⟩
  | .hbm, ⟨1, _⟩ => ⟨S16x128x8x128x8x3, .f32⟩
  | .hbm, ⟨2, _⟩ => ⟨S_, .f32⟩
  | .hbm, ⟨3, _⟩ => ⟨S16x128x128x3, .f32⟩
  | .hbm, ⟨4, _⟩ => ⟨S_, .f32⟩
  | .hbm, ⟨5, _⟩ => ⟨S16x128x128x3, .f32⟩
  | .hbm, ⟨6, _⟩ => ⟨S16x128x128x3, .f32⟩
  | .hbm, ⟨7, _⟩ => ⟨S16x128x8x128x3, .f32⟩
  | .hbm, ⟨8, _⟩ => ⟨S16x1024x128x3, .f32⟩
  | .hbm, ⟨9, _⟩ => ⟨S16x1024x128x8x3, .f32⟩
  | .hbm, ⟨10, _⟩ => ⟨S16x1024x1024x3, .f32⟩
  | .hbm, ⟨11, _⟩ => ⟨S16x1024x1024x3, .f32⟩
  | .hbm, ⟨12, _⟩ => ⟨S16x1024x1024x3, .f32⟩
  | .hbm, ⟨13, _⟩ => ⟨S16x128x8x128x8x3, .f32⟩
  | .hbm, ⟨14, _⟩ => ⟨S_, .f32⟩
  | .hbm, ⟨15, _⟩ => ⟨S16x128x128x3, .f32⟩
  | .hbm, ⟨16, _⟩ => ⟨S_, .f32⟩
  | .hbm, ⟨17, _⟩ => ⟨S16x128x128x3, .f32⟩
  | .hbm, ⟨18, _⟩ => ⟨S16x128x128x3, .f32⟩
  | _, _ => ⟨S16x1024x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S16x1024x1024x3_S16x128x8x128x8x3 : S16x1024x1024x3.ShapeCasts S16x128x8x128x8x3
  reducesTo_S16x128x8x128x8x3_S16x128x128x3_d2_4 : S16x128x8x128x8x3.ReducesTo [2, 4] S16x128x128x3
  h_S_ : 0 < S_.numel
  bcast_S_S16x128x128x3 : S_.BroadcastsInDim S16x128x128x3 (![] : Fin 0 → Fin S16x128x128x3.rank)
  bcast_S16x128x128x3_S16x128x8x128x3_0_1_3_4 : S16x128x128x3.BroadcastsInDim S16x128x8x128x3 (![0, 1, 3, 4] : Fin 4 → Fin S16x128x8x128x3.rank)
  shapeCasts_S16x128x8x128x3_S16x1024x128x3 : S16x128x8x128x3.ShapeCasts S16x1024x128x3
  bcast_S16x1024x128x3_S16x1024x128x8x3_0_1_2_4 : S16x1024x128x3.BroadcastsInDim S16x1024x128x8x3 (![0, 1, 2, 4] : Fin 4 → Fin S16x1024x128x8x3.rank)
  shapeCasts_S16x1024x128x8x3_S16x1024x1024x3 : S16x1024x128x8x3.ShapeCasts S16x1024x1024x3

variable [Facts₀]

class Facts : Prop extends Facts₀ where

variable [Facts]
-- ==== Proof.Consts.lean ====
/-
  The three float constants the programs spell, as the extended reals their patterns denote: the reference's divisor
  `64.0` is the real 64 and the kernel's scale `0.015625` is exactly `2⁻⁶ = 1/64`, so a division by the one is the
  product with the other; `0.0`, from which both reductions start, is 0.
-/
import Idealize.ShloMosaic.PureOps.Ideal

noncomputable section

namespace Cert.Consts

open Idealize.ShloMosaic

/-- `0.0` denotes 0. -/
theorem ofBits_zero : Ideal.ofBits .f32 0x00000000#32 = 0 := by
  simp [Ideal.ofBits, Ideal.ieee]

/-- `64.0` (sign 0, exponent 133, fraction 0) denotes the real 64. -/
theorem ofBits_64 : Ideal.ofBits .f32 0x42800000#32 = ((64 : ℝ) : EReal) := by
  simp [Ideal.ofBits, Ideal.ieee, -EReal.coe_mul]; norm_num

/-- `0.015625` (sign 0, exponent 121, fraction 0) denotes the real 1/64. -/
theorem ofBits_inv64 : Ideal.ofBits .f32 0x3C800000#32 = ((1 / 64 : ℝ) : EReal) := by
  simp [Ideal.ofBits, Ideal.ieee, -EReal.coe_mul]; norm_num

end Cert.Consts

end
-- ==== Proof.FiniteEntries.lean ====
/-
  The precondition, read at an entry: every entry of the argument array is a real number.

  The precondition is `all (|x| < +∞)`: the conjunction, over every index, of the comparison of the entry's absolute
  value with the pattern of +∞. A conjunction of bits that is 1 has a 1 at every index; on the extended reals
  `|x| = max x (−x)` is below ⊤ exactly when `x` is neither ⊥ nor ⊤, that is, when `x` is a real.
-/
import proofs.«128061_j63050119906000_1_alg».proof.Pre_finite_inputs
import Idealize.ShloMosaic.Lib.ReduceAll
import Idealize.ShloMosaic.Lib.ValueIdx
import Idealize.ShloMosaic.PureOps.Ideal.Laws

noncomputable section

namespace Cert.FiniteEntries

open Idealize.ShloMosaic

/-- The f32 pattern of +∞ denotes ⊤. -/
theorem ofBits_inf : Ideal.ofBits .f32 0x7F800000#32 = ⊤ := by
  simp [Ideal.ofBits, Ideal.ieee]

/-- An extended real whose absolute value compares below ⊤ is a real. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- Where the precondition holds of an array, each of its entries is a real. -/
theorem entry_real [Cert.Pre_finite_inputs.Facts] (X : FVec Ideal Cert.Pre_finite_inputs.S16x1024x1024x3 .f32)
    (h : Cert.Pre_finite_inputs.fn (F := Ideal) X = fun _ => 1#1) (i : Cert.Pre_finite_inputs.S16x1024x1024x3.Idx) :
    ∃ r : ℝ, X i = (r : EReal) := by
  have e := congrFun h ValueIdx.ix0
  dsimp only [Cert.Pre_finite_inputs.fn] at e
  have hi := Host.reduce_andi_all _ _ _ _ _ e i
  refine real_of_abs_lt_top (X i) ?_
  rw [← ofBits_inf]
  exact hi

end Cert.FiniteEntries

end
-- ==== Proof.TileVariance.lean ====
/-
  The variance of a tile, two ways, on the extended reals.

  For 64 finite numbers x(a, b), a, b < 8, with sum S and sum of squares Q, the mean of the squared deviations from
  the mean S / 64 is the mean of the squares minus the square of the mean:

      (∑ (x − S/64)²) / 64 = Q · (1/64) − (S · (1/64))².

  Over the reals this is the expansion (x − μ)² = x² − 2μx + μ² summed over the tile, with ∑ x = 64 μ. On the
  extended reals the two sides differ at the infinities (∞ − ∞), so the law is stated for entries that are reals;
  the sums, products, differences and the division by 64 of reals are then the reals' own, and the identity is the
  real one under the coercion.
-/
import Mathlib
import Idealize.ShloMosaic.PureOps.Ideal

open scoped BigOperators

namespace Cert.TileVariance

open Idealize.ShloMosaic

/-- The real identity over any finite index type of `n ≠ 0` elements: the mean squared deviation from the mean is
    the mean square minus the squared mean, the divisions written as products with `1 / n`. -/
theorem var_real {ι : Type} [Fintype ι] (f : ι → ℝ) (n : ℝ) (hn : (Fintype.card ι : ℝ) = n) (h0 : n ≠ 0) :
    (∑ i, (f i - (∑ j, f j) * (1 / n)) * (f i - (∑ j, f j) * (1 / n))) * (1 / n)
      = (∑ i, f i * f i) * (1 / n) - ((∑ i, f i) * (1 / n)) * ((∑ i, f i) * (1 / n)) := by
  have hexp : ∀ μ : ℝ, ∑ i, (f i - μ) * (f i - μ) = (∑ i, f i * f i) - 2 * μ * (∑ i, f i) + n * (μ * μ) := by
    intro μ
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul, hn]
    ring
  rw [hexp]
  field_simp
  ring

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW on the extended reals, for a tile of 8 × 8 real entries, in the two forms the programs compute: on the
    left the two-pass form (the tile's mean by a division by 64, the squared deviations summed from `0` and divided
    by 64), on the right the one-pass form (the sums of the entries and of their squares scaled by `1/64`). -/
theorem var_tile (x : Fin 8 → Fin 8 → EReal) (hx : ∀ a b, ∃ r : ℝ, x a b = (r : EReal)) :
    Ideal.div (0 + ∑ a, ∑ b,
        (x a b - Ideal.div (0 + ∑ a', ∑ b', x a' b') ((64 : ℝ) : EReal))
          * (x a b - Ideal.div (0 + ∑ a', ∑ b', x a' b') ((64 : ℝ) : EReal))) ((64 : ℝ) : EReal)
      = (∑ a, ∑ b, x a b * x a b) * ((1 / 64 : ℝ) : EReal)
        - ((∑ a, ∑ b, x a b) * ((1 / 64 : ℝ) : EReal)) * ((∑ a, ∑ b, x a b) * ((1 / 64 : ℝ) : EReal)) := by
  choose f hf using hx
  have h64 : (64 : ℝ) ≠ 0 := by norm_num
  -- every sum below is the coercion of the real sum over the 64 pairs
  have hS : (∑ a, ∑ b, x a b) = ((∑ p : Fin 8 × Fin 8, f p.1 p.2 : ℝ) : EReal) := by
    rw [coe_sum, Fintype.sum_prod_type]
    exact Finset.sum_congr rfl fun a _ => Finset.sum_congr rfl fun b _ => hf a b
  have hQ : (∑ a, ∑ b, x a b * x a b) = ((∑ p : Fin 8 × Fin 8, f p.1 p.2 * f p.1 p.2 : ℝ) : EReal) := by
    rw [coe_sum, Fintype.sum_prod_type]
    exact Finset.sum_congr rfl fun a _ => Finset.sum_congr rfl fun b _ => by rw [hf a b, EReal.coe_mul]
  rw [zero_add, zero_add, Ideal.div_coe h64, Ideal.div_coe h64, hS, hQ]
  have hD : ∀ μ : ℝ, (∑ a, ∑ b, (x a b - (μ : EReal)) * (x a b - (μ : EReal)))
      = ((∑ p : Fin 8 × Fin 8, (f p.1 p.2 - μ) * (f p.1 p.2 - μ) : ℝ) : EReal) := by
    intro μ
    rw [coe_sum, Fintype.sum_prod_type]
    exact Finset.sum_congr rfl fun a _ => Finset.sum_congr rfl fun b _ => by
      rw [hf a b, ← EReal.coe_sub, ← EReal.coe_mul]
  rw [← EReal.coe_mul, hD, ← EReal.coe_mul, ← EReal.coe_mul, ← EReal.coe_mul, ← EReal.coe_sub]
  exact congrArg _ (var_real (fun p : Fin 8 × Fin 8 => f p.1 p.2) 64 (by simp) h64)

end Cert.TileVariance
-- ==== Proof.Tile.lean ====
/-
  Tiles of the image, and the two forms of a tile's variance as functions of the whole argument array.

  The argument is an array x[n, h, w, c] of shape [16, 1024, 1024, 3]; the result has shape [16, 128, 128, 3], one entry
  per 8 × 8 tile of the (h, w) plane: entry (n, p, q, c) depends on the 64 entries x[n, 8p + a, 8q + b, c], a, b < 8.
  `pt n p q c a b` is the array index of entry (a, b) of that tile. Viewed through the row-major reshape to
  [16, 128, 8, 128, 8, 3] the same entry sits at (n, p, a, q, b, c) (`tile_cast`).

  `onePass κ X` is the variance computed from the tile's sum and sum of squares, each scaled by κ (the reciprocal of the
  tile's size); `twoPass z s X` is the variance computed as the mean (a division by s) of the squared deviations from the
  tile's mean, the sums started from z. For real entries and z = 0, s = 64, κ = 1/64 the two agree
  (`twoPass_eq_onePass`, by the law of TileVariance).
-/
import proofs.«128061_j63050119906000_1_alg».proof.Proof.TileVariance
import Idealize.ShloMosaic.Lib.ValueIdx
import Idealize.ShloMosaic.Lib.ValueIdxRank6
import Idealize.ShloMosaic.Lib.Pipeline.Value
import Idealize.ShloMosaic.PureOps.Ideal.Laws

noncomputable section

open scoped BigOperators

namespace Cert.Tile

open Idealize.ShloMosaic Idealize.ShloMosaic.ValueIdx

/-- The argument array's shape, the result's, and the rank-6 view of the argument by tiles. -/
abbrev SArg : Shape := ⟨4, ![16, 1024, 1024, 3]⟩
abbrev SRes : Shape := ⟨4, ![16, 128, 128, 3]⟩
abbrev STiles : Shape := ⟨6, ![16, 128, 8, 128, 8, 3]⟩

/-- Row (or column) `a` of tile row (or column) `p`: `8 p + a`. -/
abbrev sub (p : Fin 128) (a : Fin 8) : Fin 1024 := ⟨8 * p.val + a.val, by have := p.isLt; have := a.isLt; omega⟩

/-- The array index of entry (a, b) of tile (p, q) of image `n`, channel `c`. -/
abbrev pt (n : Fin 16) (p q : Fin 128) (c : Fin 3) (a b : Fin 8) : SArg.Idx := ix4 n (sub p a) (sub q b) c

/-- The variance of tile (n, p, q, c) from its sum and its sum of squares, each scaled by `κ`. -/
def onePass (κ : EReal) (X : SArg.Idx → EReal) (n : Fin 16) (p q : Fin 128) (c : Fin 3) : EReal :=
  (∑ a : Fin 8, ∑ b : Fin 8, X (pt n p q c a b) * X (pt n p q c a b)) * κ
    - ((∑ a : Fin 8, ∑ b : Fin 8, X (pt n p q c a b)) * κ) * ((∑ a : Fin 8, ∑ b : Fin 8, X (pt n p q c a b)) * κ)

/-- The variance of tile (n, p, q, c) as the mean of the squared deviations from the tile's mean: sums started from
    `z`, means by the division by `s`. -/
def twoPass (z s : EReal) (X : SArg.Idx → EReal) (n : Fin 16) (p q : Fin 128) (c : Fin 3) : EReal :=
  Ideal.div (z + ∑ a : Fin 8, ∑ b : Fin 8,
      (X (pt n p q c a b) - Ideal.div (z + ∑ a' : Fin 8, ∑ b' : Fin 8, X (pt n p q c a' b')) s)
        * (X (pt n p q c a b) - Ideal.div (z + ∑ a' : Fin 8, ∑ b' : Fin 8, X (pt n p q c a' b')) s)) s

/-- On an array of real entries the two forms agree, at the values the programs' constants denote. -/
theorem twoPass_eq_onePass (X : SArg.Idx → EReal) (hX : ∀ i, ∃ r : ℝ, X i = (r : EReal))
    (n : Fin 16) (p q : Fin 128) (c : Fin 3) :
    twoPass 0 ((64 : ℝ) : EReal) X n p q c = onePass ((1 / 64 : ℝ) : EReal) X n p q c :=
  Cert.TileVariance.var_tile (fun a b => X (pt n p q c a b)) fun a b => hX _

/-- The result array in the one-pass form, index by index. -/
def G (κ : EReal) (X : SArg.Idx → EReal) : SRes.Idx → EReal := fun o =>
  onePass κ X ⟨(o 0).val, (o 0).isLt⟩ ⟨(o 1).val, (o 1).isLt⟩ ⟨(o 2).val, (o 2).isLt⟩ ⟨(o 3).val, (o 3).isLt⟩

theorem G_ix4 (κ : EReal) (X : SArg.Idx → EReal) (n : Fin 16) (p q : Fin 128) (c : Fin 3) :
    G κ X (ix4 n p q c) = onePass κ X n p q c := rfl

/-- The row-major reshape of the argument to [16, 128, 8, 128, 8, 3], read at (n, p, a, q, b, c), is entry (a, b) of
    tile (p, q): both positions are ((1024 n + 8 p + a) 1024 + 8 q + b) 3 + c. -/
theorem tile_cast {α : Type} (v : SArg.Idx → α) (h : SArg.ShapeCasts STiles)
    (n : Fin 16) (p : Fin 128) (a : Fin 8) (q : Fin 128) (b : Fin 8) (c : Fin 3) :
    shapeCast STiles v h (ix6 n p a q b c) = v (pt n p q c a b) :=
  shapeCast_apply v h (ix6 n p a q b c) (pt n p q c a b) (by
    rw [Shape.rowMajor_val_four, Shape.rowMajor_val_six]
    have := n.isLt; have := p.isLt; have := q.isLt; have := a.isLt; have := b.isLt; have := c.isLt
    show ((n.val * 1024 + (8 * p.val + a.val)) * 1024 + (8 * q.val + b.val)) * 3 + c.val
      = ((((n.val * 128 + p.val) * 8 + a.val) * 128 + q.val) * 8 + b.val) * 3 + c.val
    omega)

/-- The host's sum over the two in-tile axes of the rank-6 view, read at tile (n, p, q, c): the initial value plus the
    double sum over the tile's rows and columns. The indices that drop to (n, p, q, c) are exactly the
    (n, p, a, q, b, c), a, b < 8. -/
theorem reduce_tile (h' : STiles.ReducesTo [2, 4] SRes) (x : STiles.Idx → EReal) (init : EReal)
    (n : Fin 16) (p q : Fin 128) (c : Fin 3) :
    Ideal.hostReduceAdd h' x init (ix4 n p q c) = init + ∑ a : Fin 8, ∑ b : Fin 8, x (ix6 n p a q b c) := by
  have hd : ∀ i : STiles.Idx, (h'.drop i ⟨0, by decide⟩).val = (i 0).val ∧ (h'.drop i ⟨1, by decide⟩).val = (i 1).val
      ∧ (h'.drop i ⟨2, by decide⟩).val = (i 3).val ∧ (h'.drop i ⟨3, by decide⟩).val = (i 5).val := fun i =>
    ⟨h'.drop_apply_val_of_eq i ⟨0, by decide⟩ 0, h'.drop_apply_val_of_eq i ⟨1, by decide⟩ 1,
      h'.drop_apply_val_of_eq i ⟨2, by decide⟩ 3, h'.drop_apply_val_of_eq i ⟨3, by decide⟩ 5⟩
  unfold Ideal.hostReduceAdd
  refine congrArg (init + ·) ?_
  have hprod : ∑ a : Fin 8, ∑ b : Fin 8, x (ix6 n p a q b c) = ∑ ab : Fin 8 × Fin 8, x (ix6 n p ab.1 q ab.2 c) :=
    (Fintype.sum_prod_type (fun ab : Fin 8 × Fin 8 => x (ix6 n p ab.1 q ab.2 c))).symm
  rw [hprod]
  refine Finset.sum_nbij' (fun i => ((⟨(i 2).val, (i 2).isLt⟩ : Fin 8), (⟨(i 4).val, (i 4).isLt⟩ : Fin 8)))
    (fun ab => ix6 n p ab.1 q ab.2 c) ?_ ?_ ?_ ?_ ?_
  · intro i _; exact Finset.mem_univ _
  · intro ab _
    rw [Finset.mem_filter]
    refine ⟨Finset.mem_univ _, funext fun g => Fin.ext ?_⟩
    obtain ⟨e0, e1, e2, e3⟩ := hd (ix6 n p ab.1 q ab.2 c)
    match g with
    | ⟨0, _⟩ => exact e0
    | ⟨1, _⟩ => exact e1
    | ⟨2, _⟩ => exact e2
    | ⟨3, _⟩ => exact e3
  · intro i hi
    rw [Finset.mem_filter] at hi
    obtain ⟨e0, e1, e2, e3⟩ := hd i
    have f0 := congrArg (fun j => (j ⟨0, by decide⟩).val) hi.2
    have f1 := congrArg (fun j => (j ⟨1, by decide⟩).val) hi.2
    have f2 := congrArg (fun j => (j ⟨2, by decide⟩).val) hi.2
    have f3 := congrArg (fun j => (j ⟨3, by decide⟩).val) hi.2
    funext g
    apply Fin.ext
    match g with
    | ⟨0, _⟩ => exact (e0.symm.trans f0).symm
    | ⟨1, _⟩ => exact (e1.symm.trans f1).symm
    | ⟨2, _⟩ => rfl
    | ⟨3, _⟩ => exact (e2.symm.trans f2).symm
    | ⟨4, _⟩ => rfl
    | ⟨5, _⟩ => exact (e3.symm.trans f3).symm
  · intro ab _; rfl
  · intro i hi
    rw [Finset.mem_filter] at hi
    obtain ⟨e0, e1, e2, e3⟩ := hd i
    have f0 := congrArg (fun j => (j ⟨0, by decide⟩).val) hi.2
    have f1 := congrArg (fun j => (j ⟨1, by decide⟩).val) hi.2
    have f2 := congrArg (fun j => (j ⟨2, by decide⟩).val) hi.2
    have f3 := congrArg (fun j => (j ⟨3, by decide⟩).val) hi.2
    refine congrArg x (funext fun g => Fin.ext ?_)
    match g with
    | ⟨0, _⟩ => exact e0.symm.trans f0
    | ⟨1, _⟩ => exact e1.symm.trans f1
    | ⟨2, _⟩ => rfl
    | ⟨3, _⟩ => exact e2.symm.trans f2
    | ⟨4, _⟩ => rfl
    | ⟨5, _⟩ => exact e3.symm.trans f3

end Cert.Tile

end
-- ==== Proof.RefRead.lean ====
/-
  The reference's result, read at a tile: the two-pass variance of the argument array.

  The reference reshapes the argument to [16, 128, 8, 128, 8, 3] and sums over the two in-tile axes, divides by 64 (the
  tile's mean), broadcasts the mean back over the tile (two broadcasts and two reshapes: entry (n, 8p + a, 8q + b, c) of
  the full-resolution array reads the mean of tile (n, p, q, c)), subtracts, squares, and takes the tile mean again.
  Read at (n, p, q, c) that is `Tile.twoPass` of the argument, from the initial value `0.0` and the divisor `64.0`.
-/
import proofs.«128061_j63050119906000_1_alg».proof.Proof.Tile
import proofs.«128061_j63050119906000_1_alg».proof.Proof.Gen.ReferenceIdeal.Read

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Tile

variable (X : FVec Ideal S16x1024x1024x3 .f32)

/-- The full-resolution index of entry (a, b) of tile (p, q), seen through the reshape to [16, 1024, 128, 8, 3], is
    (n, 8p + a, q, b, c). -/
theorem idx7 (n : Fin 16) (p q : Fin 128) (c : Fin 3) (a b : Fin 8) :
    idx_main_v7 (pt n p q c a b) = ix5 n (sub p a) q b c := by
  have := n.isLt; have := p.isLt; have := q.isLt; have := a.isLt; have := b.isLt; have := c.isLt
  funext g
  apply Fin.ext
  match g with
  | ⟨0, _⟩ => show (((n.val * 1024 + (8 * p.val + a.val)) * 1024 + (8 * q.val + b.val)) * 3 + c.val) / 3145728 = n.val; omega
  | ⟨1, _⟩ => show (((n.val * 1024 + (8 * p.val + a.val)) * 1024 + (8 * q.val + b.val)) * 3 + c.val) / 3072 % 1024 = 8 * p.val + a.val; omega
  | ⟨2, _⟩ => show (((n.val * 1024 + (8 * p.val + a.val)) * 1024 + (8 * q.val + b.val)) * 3 + c.val) / 24 % 128 = q.val; omega
  | ⟨3, _⟩ => show (((n.val * 1024 + (8 * p.val + a.val)) * 1024 + (8 * q.val + b.val)) * 3 + c.val) / 3 % 8 = b.val; omega
  | ⟨4, _⟩ => show (((n.val * 1024 + (8 * p.val + a.val)) * 1024 + (8 * q.val + b.val)) * 3 + c.val) % 3 = c.val; omega

/-- The column broadcast forgets the in-tile column. -/
theorem idx6 (n : Fin 16) (h : Fin 1024) (q : Fin 128) (b : Fin 8) (c : Fin 3) :
    idx_main_v6 (ix5 n h q b c) = ix4 n h q c := by
  funext g
  match g with
  | ⟨0, _⟩ => rfl
  | ⟨1, _⟩ => rfl
  | ⟨2, _⟩ => rfl
  | ⟨3, _⟩ => rfl

/-- Row 8p + a of [16, 1024, 128, 3], seen through the reshape to [16, 128, 8, 128, 3], is (n, p, a, q, c). -/
theorem idx5 (n : Fin 16) (p : Fin 128) (a : Fin 8) (q : Fin 128) (c : Fin 3) :
    idx_main_v5 (ix4 n (sub p a) q c) = ix5 n p a q c := by
  have := n.isLt; have := p.isLt; have := q.isLt; have := a.isLt; have := c.isLt
  funext g
  apply Fin.ext
  match g with
  | ⟨0, _⟩ => show (((n.val * 1024 + (8 * p.val + a.val)) * 128 + q.val) * 3 + c.val) / 393216 = n.val; omega
  | ⟨1, _⟩ => show (((n.val * 1024 + (8 * p.val + a.val)) * 128 + q.val) * 3 + c.val) / 3072 % 128 = p.val; omega
  | ⟨2, _⟩ => show (((n.val * 1024 + (8 * p.val + a.val)) * 128 + q.val) * 3 + c.val) / 384 % 8 = a.val; omega
  | ⟨3, _⟩ => show (((n.val * 1024 + (8 * p.val + a.val)) * 128 + q.val) * 3 + c.val) / 3 % 128 = q.val; omega
  | ⟨4, _⟩ => show (((n.val * 1024 + (8 * p.val + a.val)) * 128 + q.val) * 3 + c.val) % 3 = c.val; omega

/-- The row broadcast forgets the in-tile row. -/
theorem idx4 (n : Fin 16) (p : Fin 128) (a : Fin 8) (q : Fin 128) (c : Fin 3) :
    idx_main_v4 (ix5 n p a q c) = ix4 n p q c := by
  funext g
  match g with
  | ⟨0, _⟩ => rfl
  | ⟨1, _⟩ => rfl
  | ⟨2, _⟩ => rfl
  | ⟨3, _⟩ => rfl

/-- The mean broadcast back to full resolution, read at entry (a, b) of tile (p, q), is the tile's mean. -/
theorem upsampled_apply (n : Fin 16) (p q : Fin 128) (c : Fin 3) (a b : Fin 8) :
    val_main_v7 (F := Ideal) X (pt n p q c a b) = val_main_v3 (F := Ideal) X (ix4 n p q c) := by
  rw [val_main_v7_apply, idx7, val_main_v6_apply, idx6, val_main_v5_apply, idx5, val_main_v4_apply, idx4]

/-- The first tile sum: the initial value plus the tile's 64 entries. -/
theorem sum_apply (n : Fin 16) (p q : Fin 128) (c : Fin 3) :
    val_main_v1 (F := Ideal) X (ix4 n p q c)
      = Ideal.ofBits .f32 0x00000000#32 + ∑ a : Fin 8, ∑ b : Fin 8, X (pt n p q c a b) := by
  show Ideal.hostReduceAdd reducesTo_S16x128x8x128x8x3_S16x128x128x3_d2_4 (val_main_v0 (F := Ideal) X)
    (Ideal.ofBits .f32 0x00000000#32) (ix4 n p q c) = _
  rw [reduce_tile]
  refine congrArg (_ + ·) (Finset.sum_congr rfl fun a _ => Finset.sum_congr rfl fun b _ => ?_)
  exact tile_cast X _ n p a q b c

/-- The tile's mean. -/
theorem mean_apply (n : Fin 16) (p q : Fin 128) (c : Fin 3) :
    val_main_v3 (F := Ideal) X (ix4 n p q c)
      = Ideal.div (Ideal.ofBits .f32 0x00000000#32 + ∑ a : Fin 8, ∑ b : Fin 8, X (pt n p q c a b))
          (Ideal.ofBits .f32 0x42800000#32) := by
  rw [val_main_v3_apply, sum_apply, val_main_v2_apply, val_main_cst_0_apply]
  rfl

/-- The second tile sum: the initial value plus the tile's 64 squared deviations. -/
theorem sqsum_apply (n : Fin 16) (p q : Fin 128) (c : Fin 3) :
    val_main_v11 (F := Ideal) X (ix4 n p q c)
      = Ideal.ofBits .f32 0x00000000#32 + ∑ a : Fin 8, ∑ b : Fin 8,
          (X (pt n p q c a b) - val_main_v3 (F := Ideal) X (ix4 n p q c))
            * (X (pt n p q c a b) - val_main_v3 (F := Ideal) X (ix4 n p q c)) := by
  show Ideal.hostReduceAdd reducesTo_S16x128x8x128x8x3_S16x128x128x3_d2_4 (val_main_v10 (F := Ideal) X)
    (Ideal.ofBits .f32 0x00000000#32) (ix4 n p q c) = _
  rw [reduce_tile]
  refine congrArg (_ + ·) (Finset.sum_congr rfl fun a _ => Finset.sum_congr rfl fun b _ => ?_)
  refine (tile_cast (val_main_v9 (F := Ideal) X) _ n p a q b c).trans ?_
  rw [val_main_v9_apply, val_main_v8_apply, upsampled_apply]
  rfl

/-- THE REFERENCE AT A TILE: the two-pass variance of the argument, from `0.0` and `64.0`. -/
theorem result_apply (n : Fin 16) (p q : Fin 128) (c : Fin 3) :
    val_main_v13 (F := Ideal) X (ix4 n p q c)
      = twoPass (Ideal.ofBits .f32 0x00000000#32) (Ideal.ofBits .f32 0x42800000#32) X n p q c := by
  rw [val_main_v13_apply, sqsum_apply, mean_apply, val_main_v12_apply, val_main_cst_2_apply]
  rfl

end Cert.ReferenceIdeal.RefValue

end
-- ==== Proof.KernelRead.lean ====
/-
  What the kernel body leaves in an output block, read at an entry: the one-pass variance of the input block's tiles.

  The body squares its [256, 1024, 3] block, views the block and its square as [256, 128, 8, 3] and sums the 8 columns
  of each tile row, views the sums as [32, 8, 128, 3] and sums the 8 rows of each tile, scales both totals by `2⁻⁶` and
  stores `(∑ x²) · 2⁻⁶ − ((∑ x) · 2⁻⁶)²`. Entry (r, q, c) of the [32, 128, 3] result therefore reads the 64 entries
  (8r + i, 8q + j, c), i, j < 8, of the input block: each reduction is a sum over one axis, each reshape keeps the
  row-major position.
-/
import proofs.«128061_j63050119906000_1_alg».proof.Proof.Tile
import proofs.«128061_j63050119906000_1_alg».proof.Proof.Gen.KernelIdeal.Value
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen
open Idealize.ShloMosaic Idealize.ShloMosaic.ValueIdx Cert.Tile

/-- Row `8 r + i` of a block of 256 rows: row `i` of the block's tile row `r`. -/
abbrev brow (r : Fin 32) (i : Fin 8) : Fin 256 := ⟨8 * r.val + i.val, by have := r.isLt; have := i.isLt; omega⟩

/-- The sum over the in-tile columns: at (h, q, c) the 8 entries (h, q, j, c). -/
theorem sum_cols (u : FVec Ideal S256x128x8x3 .f32) (h : Fin 256) (q : Fin 128) (c : Fin 3) :
    multiReduction (F := Ideal) .add [2] S256x128x3 u 0x00000000#32 reduces_S256x128x8x3_S256x128x3 (.inl rfl) rfl (ix3 h q c)
      = ∑ j : Fin 8, u (ix4 h q j c) := by
  refine (Ideal.multiReduction_add_single u _ reduces_S256x128x8x3_S256x128x3 _ _ (ix3 h q c)).trans ?_
  refine Finset.sum_congr rfl fun j _ => congrArg u (funext fun g => Fin.ext ?_)
  match g with
  | ⟨0, _⟩ => rfl
  | ⟨1, _⟩ => rfl
  | ⟨2, _⟩ => rfl
  | ⟨3, _⟩ => rfl

/-- The sum over the in-tile rows: at (r, q, c) the 8 entries (r, i, q, c). -/
theorem sum_rows (u : FVec Ideal S32x8x128x3 .f32) (r : Fin 32) (q : Fin 128) (c : Fin 3) :
    multiReduction (F := Ideal) .add [1] S32x128x3 u 0x00000000#32 reduces_S32x8x128x3_S32x128x3 (.inl rfl) rfl (ix3 r q c)
      = ∑ i : Fin 8, u (ix4 r i q c) := by
  refine (Ideal.multiReduction_add_single u _ reduces_S32x8x128x3_S32x128x3 _ _ (ix3 r q c)).trans ?_
  refine Finset.sum_congr rfl fun i _ => congrArg u (funext fun g => Fin.ext ?_)
  match g with
  | ⟨0, _⟩ => rfl
  | ⟨1, _⟩ => rfl
  | ⟨2, _⟩ => rfl
  | ⟨3, _⟩ => rfl

/-- Column `j` of tile column `q` is column `8 q + j`. -/
theorem cast_cols {α : Type} (v : S256x1024x3.Idx → α) (hc : S256x1024x3.ShapeCasts S256x128x8x3)
    (h : Fin 256) (q : Fin 128) (j : Fin 8) (c : Fin 3) :
    shapeCast S256x128x8x3 v hc (ix4 h q j c) = v (ix3 h (sub q j) c) :=
  shapeCast_apply v hc (ix4 h q j c) (ix3 h (sub q j) c) (by
    rw [Shape.rowMajor_val_three, Shape.rowMajor_val_four]
    have := h.isLt; have := q.isLt; have := j.isLt; have := c.isLt
    show (h.val * 1024 + (8 * q.val + j.val)) * 3 + c.val = ((h.val * 128 + q.val) * 8 + j.val) * 3 + c.val
    omega)

/-- Row `i` of tile row `r` is row `8 r + i`. -/
theorem cast_rows {α : Type} (w : S256x128x3.Idx → α) (hc : S256x128x3.ShapeCasts S32x8x128x3)
    (r : Fin 32) (i : Fin 8) (q : Fin 128) (c : Fin 3) :
    shapeCast S32x8x128x3 w hc (ix4 r i q c) = w (ix3 (brow r i) q c) :=
  shapeCast_apply w hc (ix4 r i q c) (ix3 (brow r i) q c) (by
    rw [Shape.rowMajor_val_three, Shape.rowMajor_val_four]
    have := r.isLt; have := q.isLt; have := i.isLt; have := c.isLt
    show ((8 * r.val + i.val) * 128 + q.val) * 3 + c.val = ((r.val * 8 + i.val) * 128 + q.val) * 3 + c.val
    omega)

/-- The block without its leading unit axis. -/
theorem cast_unit {α : Type} (P : S1x256x1024x3.Idx → α) (hc : S1x256x1024x3.ShapeCasts S256x1024x3)
    (h : Fin 256) (w : Fin 1024) (c : Fin 3) :
    shapeCast S256x1024x3 P hc (ix3 h w c) = P (ix4 (0 : Fin 1) h w c) :=
  shapeCast_apply P hc (ix3 h w c) (ix4 (0 : Fin 1) h w c) (by
    rw [Shape.rowMajor_val_three, Shape.rowMajor_val_four]
    have := h.isLt; have := w.isLt; have := c.isLt
    show (((0 : Fin 1).val * 256 + h.val) * 1024 + w.val) * 3 + c.val = (h.val * 1024 + w.val) * 3 + c.val
    simp)

/-- The two reductions together: entry (r, q, c) is the sum of the 64 entries of tile (r, q). -/
theorem tile_sum (v : FVec Ideal S256x1024x3 .f32) (r : Fin 32) (q : Fin 128) (c : Fin 3) :
    multiReduction (F := Ideal) .add [1] S32x128x3 (shapeCast S32x8x128x3 (multiReduction (F := Ideal) .add [2] S256x128x3
        (shapeCast S256x128x8x3 v shapeCasts_S256x1024x3_S256x128x8x3) 0x00000000#32 reduces_S256x128x8x3_S256x128x3 (.inl rfl) rfl)
        shapeCasts_S256x128x3_S32x8x128x3) 0x00000000#32 reduces_S32x8x128x3_S32x128x3 (.inl rfl) rfl (ix3 r q c)
      = ∑ i : Fin 8, ∑ j : Fin 8, v (ix3 (brow r i) (sub q j) c) := by
  refine (sum_rows _ r q c).trans (Finset.sum_congr rfl fun i _ => ?_)
  refine (cast_rows _ _ r i q c).trans ?_
  refine (sum_cols _ (brow r i) q c).trans (Finset.sum_congr rfl fun j _ => ?_)
  exact cast_cols v _ (brow r i) q j c

/-- The stored value at entry (r, q, c) of the output block, over the input block's entries. -/
theorem block_apply (P0 : Vec Ideal S1x256x1024x3 .f32) (y0 : Fin 1) (r : Fin 32) (q : Fin 128) (c : Fin 3) :
    Value.E1 (F := Ideal) P0 (ix4 y0 r q c)
      = (∑ i : Fin 8, ∑ j : Fin 8, P0 (ix4 (0 : Fin 1) (brow r i) (sub q j) c) * P0 (ix4 (0 : Fin 1) (brow r i) (sub q j) c))
            * Ideal.ofBits .f32 0x3C800000#32
          - ((∑ i : Fin 8, ∑ j : Fin 8, P0 (ix4 (0 : Fin 1) (brow r i) (sub q j) c)) * Ideal.ofBits .f32 0x3C800000#32)
            * ((∑ i : Fin 8, ∑ j : Fin 8, P0 (ix4 (0 : Fin 1) (brow r i) (sub q j) c)) * Ideal.ofBits .f32 0x3C800000#32) := by
  have e0 : Value.ix1_0 (ix4 y0 r q c) = ix3 r q c := funext fun a => match a with
    | ⟨0, _⟩ => rfl | ⟨1, _⟩ => rfl | ⟨2, _⟩ => rfl
  have e1 : Value.ix1_1 (ix4 y0 r q c) = ix3 r q c := funext fun a => match a with
    | ⟨0, _⟩ => rfl | ⟨1, _⟩ => rfl | ⟨2, _⟩ => rfl
  have e2 : Value.ix1_2 (ix4 y0 r q c) = ix3 r q c := funext fun a => match a with
    | ⟨0, _⟩ => rfl | ⟨1, _⟩ => rfl | ⟨2, _⟩ => rfl
  have hv : ∀ (h : Fin 256) (w : Fin 1024),
      shapeCast S256x1024x3 P0 shapeCasts_S1x256x1024x3_S256x1024x3 (ix3 h w c) = P0 (ix4 (0 : Fin 1) h w c) :=
    fun h w => cast_unit P0 _ h w c
  unfold Value.E1
  rw [e0, e1, e2, tile_sum, tile_sum]
  simp only [mulf_apply, hv]
  rfl

/-- THE OUTPUT BLOCK AT AN ENTRY is the one-pass variance `Tile.G` at an entry `o` of the result array, whenever the
    input block's tile under the entry is the argument array's tile under `o` (`hP`: entry (8 y₁ + i, 8 y₂ + j, y₃)
    of the block is entry (i, j) of tile `o`). -/
theorem block_value (P0 : Vec Ideal S1x256x1024x3 .f32) (X : SArg.Idx → EReal) (y : S1x32x128x3.Idx) (o : SRes.Idx)
    (hP : ∀ (i j : Fin 8) (x : S1x256x1024x3.Idx), (x 1).val = 8 * (y 1).val + i.val → (x 2).val = 8 * (y 2).val + j.val →
      (x 3).val = (y 3).val →
      P0 x = X (pt ⟨(o 0).val, (o 0).isLt⟩ ⟨(o 1).val, (o 1).isLt⟩ ⟨(o 2).val, (o 2).isLt⟩ ⟨(o 3).val, (o 3).isLt⟩ i j)) :
    Value.E1 (F := Ideal) P0 y = G (Ideal.ofBits .f32 0x3C800000#32) X o := by
  obtain ⟨y0, r, q, c, rfl⟩ : ∃ (y0 : Fin 1) (r : Fin 32) (q : Fin 128) (c : Fin 3), y = ix4 y0 r q c :=
    ⟨y 0, y 1, y 2, y 3, eq_ix4 y⟩
  have hh : ∀ i j : Fin 8, P0 (ix4 (0 : Fin 1) (brow r i) (sub q j) c)
      = X (pt ⟨(o 0).val, (o 0).isLt⟩ ⟨(o 1).val, (o 1).isLt⟩ ⟨(o 2).val, (o 2).isLt⟩ ⟨(o 3).val, (o 3).isLt⟩ i j) :=
    fun i j => hP i j _ rfl rfl rfl
  rw [block_apply]
  unfold G onePass
  simp only [hh]

end Cert.KernelIdeal.BlockValue

end
-- ==== Proof.KernelArray.lean ====
/-
  From the blocks to the array: after the kernel's run the result array is the one-pass variance `Tile.G` of the
  argument array.

  The grid is 16 × 4: point (n, s) reads rows 256 s … 256 s + 255 of image n and writes rows 32 s … 32 s + 31 of the
  result's image n; the two windows move with the same block index. Entry (r, q, c) of the output block at that point
  is entry (n, 32 s + r, q, c) of the result, whose tile is rows 8 (32 s + r) + i = 256 s + 8 r + i of the argument —
  rows 8 r + i of the input block. So what each point writes back is its block of `Tile.G`, and the 64 blocks cover the
  result array.
-/
import proofs.«128061_j63050119906000_1_alg».proof.Proof.KernelRead

noncomputable section

open scoped BigOperators

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx Cert.Tile
open Idealize.ShloMosaic.Pipeline (Dat)

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-- The result array as a function of the argument array as the region finds it. -/
abbrev result (c : Dev nD) : S16x128x128x3.Idx → EReal :=
  G (Ideal.ofBits .f32 0x3C800000#32) (V m c main_arg0 : S16x1024x1024x3.Idx → EReal)

/-- The two windows' block indices, decided over the 64 grid points: equal on every axis, the image below 16, the
    band below 4, nothing along the width or the channels. -/
theorem index_facts : ∀ t : Fin cfg0.N, win0_0.index t (0 : Fin 4) = win0_1.index t (0 : Fin 4)
    ∧ win0_0.index t (1 : Fin 4) = win0_1.index t (1 : Fin 4)
    ∧ win0_0.index t (2 : Fin 4) = win0_1.index t (2 : Fin 4)
    ∧ win0_0.index t (3 : Fin 4) = win0_1.index t (3 : Fin 4)
    ∧ win0_1.index t (0 : Fin 4) ≤ 15 ∧ win0_1.index t (1 : Fin 4) ≤ 3
    ∧ win0_1.index t (2 : Fin 4) = 0 ∧ win0_1.index t (3 : Fin 4) = 0 :=
  (by decide +kernel : ∀ t : Fin grid0.N, _)

/-- Every (image, band) pair is some point's block index. -/
theorem index_onto : ∀ (n : Fin 16) (s : Fin 4), ∃ t : Fin cfg0.N, win0_1.index t = ![n.val, s.val, 0, 0] :=
  (by decide +kernel : ∀ (n : Fin 16) (s : Fin 4), ∃ t : Fin grid0.N, win0_1.index t = ![n.val, s.val, 0, 0])

/-- WHAT POINT `t` WRITES BACK is its block of `result`. -/
theorem flushed_eq (c : Dev nD) (t : Fin cfg0.N) :
    (dats m 0 c).flushed 1 t = ((cfg0.win 1).blk t).view.read (Elt Ideal) (result m c) := by
  rw [Value.flushed1]
  unfold out0_1
  have hcanon := funext (Value.canon1_eq (F := Ideal) (iblk m c 0 t))
  rw [View.ld_unit_zero (S := S1x256x1024x3) offsets_zero, hcanon]
  funext y
  rw [View.read_apply]
  refine BlockValue.block_value (iblk m c 0 t) _ ((cfg0.win 1).xinj (grid0.coords t) y) _ ?_
  intro i j x h1 h2 h3
  obtain ⟨e0, e1, e2, e3, b0, b1, z2, z3⟩ := index_facts t
  unfold iblk
  rw [View.read_apply]
  show V m c main_arg0 (((cfg0.win 0).blk t).view.emb x) = V m c main_arg0 _
  refine congrArg (V m c main_arg0) (funext fun a => Fin.ext ?_)
  have hx0 : (x 0).val < 1 := (x 0).isLt
  have hy0 : (y 0).val < 1 := (y 0).isLt
  match a with
  | ⟨0, _⟩ =>
    show win0_0.index t (0 : Fin 4) * 1 + 1 * (x 0).val = win0_1.index t (0 : Fin 4) * 1 + 1 * (y 0).val
    omega
  | ⟨1, _⟩ =>
    show win0_0.index t (1 : Fin 4) * 256 + 1 * (x 1).val = 8 * (win0_1.index t (1 : Fin 4) * 32 + 1 * (y 1).val) + i.val
    have h1' : (x 1).val = 8 * (y 1).val + i.val := h1
    omega
  | ⟨2, _⟩ =>
    show win0_0.index t (2 : Fin 4) * 1024 + 1 * (x 2).val = 8 * (win0_1.index t (2 : Fin 4) * 128 + 1 * (y 2).val) + j.val
    have h2' : (x 2).val = 8 * (y 2).val + j.val := h2
    omega
  | ⟨3, _⟩ =>
    show win0_0.index t (3 : Fin 4) * 3 + 1 * (x 3).val = win0_1.index t (3 : Fin 4) * 3 + 1 * (y 3).val
    have h3' : (x 3).val = (y 3).val := h3
    omega

/-- An index of the result array is in point `t`'s block iff each coordinate is in the block's range on its axis. -/
theorem mem_blk (t : Fin cfg0.N) (i : S16x128x128x3.Idx) :
    i ∈ ((cfg0.win 1).blk t).view.set ↔ ∀ a : Fin 4, win0_1.index t a * S1x32x128x3.size a ≤ (i a).val
      ∧ (i a).val < win0_1.index t a * S1x32x128x3.size a + S1x32x128x3.size a := by
  show i ∈ ((View.whole main_v0).slice (win0_1.rect t)).set ↔ _
  rw [View.set_slice_whole, Rect.mem_set_unit]
  exact Iff.rfl

/-- The blocks cover the result array: entry (n, h, q, c) is in the block of the point with image `n` and band `h / 32`. -/
theorem cover (i : S16x128x128x3.Idx) : ∃ t : Fin cfg0.N, (cfg0.win 1).flush t = true ∧ i ∈ ((cfg0.win 1).blk t).view.set := by
  have hi0 : (i 0).val < 16 := (i 0).isLt
  have hi1 : (i 1).val < 128 := (i 1).isLt
  have hi2 : (i 2).val < 128 := (i 2).isLt
  have hi3 : (i 3).val < 3 := (i 3).isLt
  obtain ⟨t, ht⟩ := index_onto ⟨(i 0).val, hi0⟩ ⟨(i 1).val / 32, by omega⟩
  have q0 : win0_1.index t (0 : Fin 4) = (i 0).val := congrFun ht 0
  have q1 : win0_1.index t (1 : Fin 4) = (i 1).val / 32 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 32 ≤ (i 1).val ∧ (i 1).val < win0_1.index t (1 : Fin 4) * 32 + 32; omega
  | ⟨2, _⟩ => show win0_1.index t (2 : Fin 4) * 128 ≤ (i 2).val ∧ (i 2).val < win0_1.index t (2 : Fin 4) * 128 + 128; omega
  | ⟨3, _⟩ => show win0_1.index t (3 : Fin 4) * 3 ≤ (i 3).val ∧ (i 3).val < win0_1.index t (3 : Fin 4) * 3 + 3; omega

/-- THE RESULT ARRAY after the run is `result`. -/
theorem final (c : Dev nD) : (dats m 0 c).arrAt 1 cfg0.N = result m c :=
  (dats m 0 c).arrAt_eq_of_cover 1 (result m c) (fun t _ => flushed_eq m c t) cover

/-- The kernel's run, read: the result array at the one-pass variance of the argument array, the argument unchanged. -/
theorem run : θ_run defs (onTc (τ := τ) (main (F := Ideal))) ⟨m, fun _ => 0, ρ⟩ fun r => ∀ c : Dev nD,
      r.2.mem ((c : Thread nD τ).loc main_v0)
        = G (Ideal.ofBits .f32 0x3C800000#32) (m ((c : Thread nD τ).loc main_arg0) : S16x1024x1024x3.Idx → EReal)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.lean ====
/-
  Per-tile variance, computed in one pass and in two: the certificate's five claims.

  The kernel computes, for each 8 × 8 tile of each image and channel, `(∑ x²) · 2⁻⁶ − ((∑ x) · 2⁻⁶)²` in one pass over
  its block; the reference computes the tile's mean `(∑ x) / 64`, broadcasts it back over the tile, and takes the mean of
  the squared deviations, `(∑ (x − mean)²) / 64`. On finite inputs every intermediate is a real number and the two are
  the one real identity "variance = mean square − squared mean"; at an infinite entry they differ (`∞ − ∞`), which is why
  the precondition is used. `0.015625` is exactly `1/64`, so no constant is renamed and the idealization rewrote
  nothing (`preserves` is `True`).

  The three frames are the programs' runs with the results dropped. For `algebraic`: the kernel's run leaves the result
  array at `Tile.G` of the argument (Proof/KernelArray.lean, from each block's value, Proof/KernelRead.lean); the
  reference's run leaves it at a term which, read at a tile, is `Tile.twoPass` of the argument (Proof/RefRead.lean); the
  precondition makes every entry of the argument a real (Proof/FiniteEntries.lean), and on reals the two forms agree at
  the values the constants denote (Proof/Tile.lean over Proof/TileVariance.lean, Proof/Consts.lean).
-/
import proofs.«128061_j63050119906000_1_alg».proof.Defs
import proofs.«128061_j63050119906000_1_alg».proof.Proof.Gen.Kernel
import proofs.«128061_j63050119906000_1_alg».proof.Proof.Gen.Kernel.Skeleton
import proofs.«128061_j63050119906000_1_alg».proof.Proof.Gen.Kernel.Launch
import proofs.«128061_j63050119906000_1_alg».proof.Proof.Gen.Kernel.Points
import proofs.«128061_j63050119906000_1_alg».proof.Proof.Gen.Kernel.Frame
import proofs.«128061_j63050119906000_1_alg».proof.Proof.Gen.KernelIdeal
import proofs.«128061_j63050119906000_1_alg».proof.Proof.Gen.KernelIdeal.Skeleton
import proofs.«128061_j63050119906000_1_alg».proof.Proof.Gen.KernelIdeal.Launch
import proofs.«128061_j63050119906000_1_alg».proof.Proof.Gen.KernelIdeal.Points
import proofs.«128061_j63050119906000_1_alg».proof.Proof.Gen.KernelIdeal.Frame
import proofs.«128061_j63050119906000_1_alg».proof.Proof.Gen.ReferenceIdeal
import proofs.«128061_j63050119906000_1_alg».proof.Proof.Gen.KernelIdeal.Value
import proofs.«128061_j63050119906000_1_alg».proof.Proof.Gen.ReferenceIdeal.Run
import proofs.«128061_j63050119906000_1_alg».proof.Proof.Gen.ReferenceIdeal.Read
import proofs.«128061_j63050119906000_1_alg».proof.Proof.Gen.Pre_finite_inputs
import proofs.«128061_j63050119906000_1_alg».proof.Proof.Consts
import proofs.«128061_j63050119906000_1_alg».proof.Proof.FiniteEntries
import proofs.«128061_j63050119906000_1_alg».proof.Proof.RefRead
import proofs.«128061_j63050119906000_1_alg».proof.Proof.KernelArray
import Idealize.ShloMosaic.Adequacy
import Idealize.ShloMosaic.Init

noncomputable section

namespace Cert.Proof

open Idealize.ShloMosaic Idealize.ShloMosaic.ValueIdx Idealize.SL.Sem

/-- The word-level kernel runs and leaves its argument as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument, both programs end with the result array at the one-pass variance of the
    argument, tile by tile: the kernel by its run; the reference because, at a tile of a finite array, its two-pass
    variance from `0.0` and `64.0` is the one-pass variance with `0.015625 = 1/64`. -/
theorem algebraic : Cert.algebraic_KernelIdeal_ReferenceIdeal := by
  intro m ρ m' ρ' hpre hagree
  refine ⟨fun c => Cert.Tile.G (Ideal.ofBits .f32 0x3C800000#32)
    (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans
      ((Cert.ReferenceIdeal.Read.val_main_v13_eq (F := Ideal)
        (m' ((c.tc : Thread Cert.ReferenceIdeal.nD Cert.ReferenceIdeal.τ).loc Cert.ReferenceIdeal.main_arg0))).trans ?_), (h c).2⟩)
    (Cert.ReferenceIdeal.Value.run (F := Ideal) m' ρ')
  rw [hagree c]
  funext o
  obtain ⟨n, p, q, ch, rfl⟩ : ∃ (n : Fin 16) (p q : Fin 128) (ch : Fin 3), o = ix4 n p q ch :=
    ⟨o 0, o 1, o 2, o 3, eq_ix4 o⟩
  rw [Cert.ReferenceIdeal.RefValue.result_apply]
  show Cert.Tile.twoPass _ _ _ n p q ch = Cert.Tile.G _ _ (ix4 n p q ch)
  rw [Cert.Tile.G_ix4, Cert.Consts.ofBits_zero, Cert.Consts.ofBits_64, Cert.Consts.ofBits_inv64]
  exact Cert.Tile.twoPass_eq_onePass _ (fun i => Cert.FiniteEntries.entry_real _ (hpre c) i) n p q ch

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
